-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v315)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v315) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S3 : Shape := ⟨1, ![3]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S1024 .f32) (main_arg5 : FVec F S3 .f32) (main_arg6 : FVec F S3 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S8x512x1024 .f32) (main_arg1 : FVec F S4096x1024 .f32) (main_arg2 : FVec F S4096 .f32) (main_arg3 : FVec F S1024x4096 .f32) (main_arg4 : FVec F S1024 .f32) (main_arg5 : FVec F S3 .f32) (main_arg6 : FVec F S3 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S8x512x1024 : Shape := ⟨3, ![8, 512, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S3 : Shape := ⟨1, ![3]⟩
abbrev S_ : Shape := ⟨0, ![]⟩
abbrev S1 : Shape := ⟨1, ![1]⟩
abbrev S4096x1 : Shape := ⟨2, ![4096, 1]⟩
abbrev S1x1024 : Shape := ⟨2, ![1, 1024]⟩
abbrev S1024x1 : Shape := ⟨2, ![1024, 1]⟩
abbrev S1x4096 : Shape := ⟨2, ![1, 4096]⟩
abbrev S512x1024 : Shape := ⟨2, ![512, 1024]⟩
abbrev S512x4096 : Shape := ⟨2, ![512, 4096]⟩

abbrev nBuf : Space → Nat
  | .hbm => 345
  | .vmem => 8
  | .smem => 0
  | _ => 0

abbrev hbmTy0_0 (i : Nat) : BufTy := match i % 128 with
  | 0 => ⟨S8x512x1024, .f32⟩
  | 1 => ⟨S4096x1024, .f32⟩
  | 2 => ⟨S4096, .f32⟩
  | 3 => ⟨S1024x4096, .f32⟩
  | 4 => ⟨S1024, .f32⟩
  | 5 => ⟨S3, .f32⟩
  | 6 => ⟨S3, .f32⟩
  | 7 => ⟨S_, .f32⟩
  | 8 => ⟨S_, .f32⟩
  | 9 => ⟨S_, .f32⟩
  | 10 => ⟨S_, .f32⟩
  | 11 => ⟨S1, .f32⟩
  | 12 => ⟨S3, .f32⟩
  | 13 => ⟨S3, .f32⟩
  | 14 => ⟨S3, .f32⟩
  | 15 => ⟨S_, .f32⟩
  | 16 => ⟨S_, .f32⟩
  | 17 => ⟨S1, .f32⟩
  | 18 => ⟨S3, .f32⟩
  | 19 => ⟨S3, .f32⟩
  | 20 => ⟨S_, .f32⟩
  | 21 => ⟨S_, .f32⟩
  | 22 => ⟨S_, .f32⟩
  | 23 => ⟨S_, .f32⟩
  | 24 => ⟨S1, .f32⟩
  | 25 => ⟨S3, .f32⟩
  | 26 => ⟨S3, .f32⟩
  | 27 => ⟨S3, .f32⟩
  | 28 => ⟨S_, .f32⟩
  | 29 => ⟨S_, .f32⟩
  | 30 => ⟨S1, .f32⟩
  | 31 => ⟨S3, .f32⟩
  | 32 => ⟨S3, .f32⟩
  | 33 => ⟨S1024, .i32⟩
  | 34 => ⟨S4096, .i32⟩
  | 35 => ⟨S_, .f32⟩
  | 36 => ⟨S4096x1024, .f32⟩
  | 37 => ⟨S_, .f32⟩
  | 38 => ⟨S4096, .f32⟩
  | 39 => ⟨S_, .f32⟩
  | 40 => ⟨S1024x4096, .f32⟩
  | 41 => ⟨S_, .f32⟩
  | 42 => ⟨S1024, .f32⟩
  | 43 => ⟨S_, .i32⟩
  | 44 => ⟨S1024, .i32⟩
  | 45 => ⟨S1024, .i1⟩
  | 46 => ⟨S1024, .f32⟩
  | 47 => ⟨S1, .f32⟩
  | 48 => ⟨S_, .f32⟩
  | 49 => ⟨S1, .f32⟩
  | 50 => ⟨S_, .f32⟩
  | 51 => ⟨S_, .f32⟩
  | 52 => ⟨S_, .i32⟩
  | 53 => ⟨S4096, .i32⟩
  | 54 => ⟨S4096, .i1⟩
  | 55 => ⟨S4096, .f32⟩
  | 56 => ⟨S4096x1, .f32⟩
  | 57 => ⟨S4096x1, .f32⟩
  | 58 => ⟨S4096x1, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S4096, .f32⟩
  | 65 => ⟨S4096, .f32⟩
  | 66 => ⟨S4096, .f32⟩
  | 67 => ⟨S1024x1, .f32⟩
  | 68 => ⟨S1024x1, .f32⟩
  | 69 => ⟨S1024x1, .f32⟩
  | 70 => ⟨S1x4096, .f32⟩
  | 71 => ⟨S1024x4096, .f32⟩
  | 72 => ⟨S1024x4096, .f32⟩
  | 73 => ⟨S1024x4096, .f32⟩
  | 74 => ⟨S1024x4096, .f32⟩
  | 75 => ⟨S1024, .f32⟩
  | 76 => ⟨S1024, .f32⟩
  | 77 => ⟨S1024, .f32⟩
  | 78 => ⟨S1, .f32⟩
  | 79 => ⟨S_, .f32⟩
  | 80 => ⟨S1, .f32⟩
  | 81 => ⟨S_, .f32⟩
  | 82 => ⟨S_, .f32⟩
  | 83 => ⟨S_, .i32⟩
  | 84 => ⟨S4096, .i32⟩
  | 85 => ⟨S4096, .i1⟩
  | 86 => ⟨S4096, .f32⟩
  | 87 => ⟨S4096x1, .f32⟩
  | 88 => ⟨S4096x1, .f32⟩
  | 89 => ⟨S4096x1, .f32⟩
  | 90 => ⟨S1x1024, .f32⟩
  | 91 => ⟨S4096x1024, .f32⟩
  | 92 => ⟨S4096x1024, .f32⟩
  | 93 => ⟨S4096x1024, .f32⟩
  | 94 => ⟨S4096x1024, .f32⟩
  | 95 => ⟨S4096, .f32⟩
  | 96 => ⟨S4096, .f32⟩
  | 97 => ⟨S4096, .f32⟩
  | 98 => ⟨S1024x1, .f32⟩
  | 99 => ⟨S1024x1, .f32⟩
  | 100 => ⟨S1024x1, .f32⟩
  | 101 => ⟨S1x4096, .f32⟩
  | 102 => ⟨S1024x4096, .f32⟩
  | 103 => ⟨S1024x4096, .f32⟩
  | 104 => ⟨S1024x4096, .f32⟩
  | 105 => ⟨S1024x4096, .f32⟩
  | 106 => ⟨S1024, .f32⟩
  | 107 => ⟨S1024, .f32⟩
  | 108 => ⟨S1024, .f32⟩
  | 109 => ⟨S1, .f32⟩
  | 110 => ⟨S_, .f32⟩
  | 111 => ⟨S1, .f32⟩
  | 112 => ⟨S_, .f32⟩
  | 113 => ⟨S_, .f32⟩
  | 114 => ⟨S_, .i32⟩
  | 115 => ⟨S4096, .i32⟩
  | 116 => ⟨S4096, .i1⟩
  | 117 => ⟨S4096, .f32⟩
  | 118 => ⟨S4096x1, .f32⟩
  | 119 => ⟨S4096x1, .f32⟩
  | 120 => ⟨S4096x1, .f32⟩
  | 121 => ⟨S1x1024, .f32⟩
  | 122 => ⟨S4096x1024, .f32⟩
  | 123 => ⟨S4096x1024, .f32⟩
  | 124 => ⟨S4096x1024, .f32⟩
  | 125 => ⟨S4096x1024, .f32⟩
  | 126 => ⟨S4096, .f32⟩
  | 127 => ⟨S4096, .f32⟩
  | _ => ⟨S8x512x1024, .f32⟩

abbrev hbmTy0_1 (i : Nat) : BufTy := match i % 128 with
  | 0 => ⟨S4096, .f32⟩
  | 1 => ⟨S1024x1, .f32⟩
  | 2 => ⟨S1024x1, .f32⟩
  | 3 => ⟨S1024x1, .f32⟩
  | 4 => ⟨S1x4096, .f32⟩
  | 5 => ⟨S1024x4096, .f32⟩
  | 6 => ⟨S1024x4096, .f32⟩
  | 7 => ⟨S1024x4096, .f32⟩
  | 8 => ⟨S1024x4096, .f32⟩
  | 9 => ⟨S1024, .f32⟩
  | 10 => ⟨S1024, .f32⟩
  | 11 => ⟨S1024, .f32⟩
  | 12 => ⟨S_, .i32⟩
  | 13 => ⟨S1024, .i32⟩
  | 14 => ⟨S1024, .i1⟩
  | 15 => ⟨S1024, .f32⟩
  | 16 => ⟨S1, .f32⟩
  | 17 => ⟨S_, .f32⟩
  | 18 => ⟨S1, .f32⟩
  | 19 => ⟨S_, .f32⟩
  | 20 => ⟨S_, .f32⟩
  | 21 => ⟨S_, .i32⟩
  | 22 => ⟨S4096, .i32⟩
  | 23 => ⟨S4096, .i1⟩
  | 24 => ⟨S4096, .f32⟩
  | 25 => ⟨S4096x1, .f32⟩
  | 26 => ⟨S4096x1, .f32⟩
  | 27 => ⟨S4096x1, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S4096, .f32⟩
  | 34 => ⟨S4096, .f32⟩
  | 35 => ⟨S4096, .f32⟩
  | 36 => ⟨S1024x1, .f32⟩
  | 37 => ⟨S1024x1, .f32⟩
  | 38 => ⟨S1024x1, .f32⟩
  | 39 => ⟨S1x4096, .f32⟩
  | 40 => ⟨S1024x4096, .f32⟩
  | 41 => ⟨S1024x4096, .f32⟩
  | 42 => ⟨S1024x4096, .f32⟩
  | 43 => ⟨S1024x4096, .f32⟩
  | 44 => ⟨S1024, .f32⟩
  | 45 => ⟨S1024, .f32⟩
  | 46 => ⟨S1024, .f32⟩
  | 47 => ⟨S1, .f32⟩
  | 48 => ⟨S_, .f32⟩
  | 49 => ⟨S1, .f32⟩
  | 50 => ⟨S_, .f32⟩
  | 51 => ⟨S_, .f32⟩
  | 52 => ⟨S_, .i32⟩
  | 53 => ⟨S4096, .i32⟩
  | 54 => ⟨S4096, .i1⟩
  | 55 => ⟨S4096, .f32⟩
  | 56 => ⟨S4096x1, .f32⟩
  | 57 => ⟨S4096x1, .f32⟩
  | 58 => ⟨S4096x1, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S4096, .f32⟩
  | 65 => ⟨S4096, .f32⟩
  | 66 => ⟨S4096, .f32⟩
  | 67 => ⟨S1024x1, .f32⟩
  | 68 => ⟨S1024x1, .f32⟩
  | 69 => ⟨S1024x1, .f32⟩
  | 70 => ⟨S1x4096, .f32⟩
  | 71 => ⟨S1024x4096, .f32⟩
  | 72 => ⟨S1024x4096, .f32⟩
  | 73 => ⟨S1024x4096, .f32⟩
  | 74 => ⟨S1024x4096, .f32⟩
  | 75 => ⟨S1024, .f32⟩
  | 76 => ⟨S1024, .f32⟩
  | 77 => ⟨S1024, .f32⟩
  | 78 => ⟨S1, .f32⟩
  | 79 => ⟨S_, .f32⟩
  | 80 => ⟨S1, .f32⟩
  | 81 => ⟨S_, .f32⟩
  | 82 => ⟨S_, .f32⟩
  | 83 => ⟨S_, .i32⟩
  | 84 => ⟨S4096, .i32⟩
  | 85 => ⟨S4096, .i1⟩
  | 86 => ⟨S4096, .f32⟩
  | 87 => ⟨S4096x1, .f32⟩
  | 88 => ⟨S4096x1, .f32⟩
  | 89 => ⟨S4096x1, .f32⟩
  | 90 => ⟨S1x1024, .f32⟩
  | 91 => ⟨S4096x1024, .f32⟩
  | 92 => ⟨S4096x1024, .f32⟩
  | 93 => ⟨S4096x1024, .f32⟩
  | 94 => ⟨S4096x1024, .f32⟩
  | 95 => ⟨S4096, .f32⟩
  | 96 => ⟨S4096, .f32⟩
  | 97 => ⟨S4096, .f32⟩
  | 98 => ⟨S1024x1, .f32⟩
  | 99 => ⟨S1024x1, .f32⟩
  | 100 => ⟨S1024x1, .f32⟩
  | 101 => ⟨S1x4096, .f32⟩
  | 102 => ⟨S1024x4096, .f32⟩
  | 103 => ⟨S1024x4096, .f32⟩
  | 104 => ⟨S1024x4096, .f32⟩
  | 105 => ⟨S1024x4096, .f32⟩
  | 106 => ⟨S1024, .f32⟩
  | 107 => ⟨S1024, .f32⟩
  | 108 => ⟨S1024, .f32⟩
  | 109 => ⟨S_, .i32⟩
  | 110 => ⟨S1024, .i32⟩
  | 111 => ⟨S1024, .i1⟩
  | 112 => ⟨S1024, .f32⟩
  | 113 => ⟨S1, .f32⟩
  | 114 => ⟨S_, .f32⟩
  | 115 => ⟨S1, .f32⟩
  | 116 => ⟨S_, .f32⟩
  | 117 => ⟨S_, .f32⟩
  | 118 => ⟨S_, .i32⟩
  | 119 => ⟨S4096, .i32⟩
  | 120 => ⟨S4096, .i1⟩
  | 121 => ⟨S4096, .f32⟩
  | 122 => ⟨S4096x1, .f32⟩
  | 123 => ⟨S4096x1, .f32⟩
  | 124 => ⟨S4096x1, .f32⟩
  | 125 => ⟨S1x1024, .f32⟩
  | 126 => ⟨S4096x1024, .f32⟩
  | 127 => ⟨S4096x1024, .f32⟩
  | _ => ⟨S8x512x1024, .f32⟩

abbrev hbmTy0_2 (i : Nat) : BufTy := match i % 128 with
  | 0 => ⟨S4096x1024, .f32⟩
  | 1 => ⟨S4096x1024, .f32⟩
  | 2 => ⟨S4096, .f32⟩
  | 3 => ⟨S4096, .f32⟩
  | 4 => ⟨S4096, .f32⟩
  | 5 => ⟨S1024x1, .f32⟩
  | 6 => ⟨S1024x1, .f32⟩
  | 7 => ⟨S1024x1, .f32⟩
  | 8 => ⟨S1x4096, .f32⟩
  | 9 => ⟨S1024x4096, .f32⟩
  | 10 => ⟨S1024x4096, .f32⟩
  | 11 => ⟨S1024x4096, .f32⟩
  | 12 => ⟨S1024x4096, .f32⟩
  | 13 => ⟨S1024, .f32⟩
  | 14 => ⟨S1024, .f32⟩
  | 15 => ⟨S1024, .f32⟩
  | 16 => ⟨S1, .f32⟩
  | 17 => ⟨S_, .f32⟩
  | 18 => ⟨S1, .f32⟩
  | 19 => ⟨S_, .f32⟩
  | 20 => ⟨S_, .f32⟩
  | 21 => ⟨S_, .i32⟩
  | 22 => ⟨S4096, .i32⟩
  | 23 => ⟨S4096, .i1⟩
  | 24 => ⟨S4096, .f32⟩
  | 25 => ⟨S4096x1, .f32⟩
  | 26 => ⟨S4096x1, .f32⟩
  | 27 => ⟨S4096x1, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S4096, .f32⟩
  | 34 => ⟨S4096, .f32⟩
  | 35 => ⟨S4096, .f32⟩
  | 36 => ⟨S1024x1, .f32⟩
  | 37 => ⟨S1024x1, .f32⟩
  | 38 => ⟨S1024x1, .f32⟩
  | 39 => ⟨S1x4096, .f32⟩
  | 40 => ⟨S1024x4096, .f32⟩
  | 41 => ⟨S1024x4096, .f32⟩
  | 42 => ⟨S1024x4096, .f32⟩
  | 43 => ⟨S1024x4096, .f32⟩
  | 44 => ⟨S1024, .f32⟩
  | 45 => ⟨S1024, .f32⟩
  | 46 => ⟨S1024, .f32⟩
  | 47 => ⟨S1, .f32⟩
  | 48 => ⟨S_, .f32⟩
  | 49 => ⟨S1, .f32⟩
  | 50 => ⟨S_, .f32⟩
  | 51 => ⟨S_, .f32⟩
  | 52 => ⟨S_, .i32⟩
  | 53 => ⟨S4096, .i32⟩
  | 54 => ⟨S4096, .i1⟩
  | 55 => ⟨S4096, .f32⟩
  | 56 => ⟨S4096x1, .f32⟩
  | 57 => ⟨S4096x1, .f32⟩
  | 58 => ⟨S4096x1, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S4096, .f32⟩
  | 65 => ⟨S4096, .f32⟩
  | 66 => ⟨S4096, .f32⟩
  | 67 => ⟨S1024x1, .f32⟩
  | 68 => ⟨S1024x1, .f32⟩
  | 69 => ⟨S1024x1, .f32⟩
  | 70 => ⟨S1x4096, .f32⟩
  | 71 => ⟨S1024x4096, .f32⟩
  | 72 => ⟨S1024x4096, .f32⟩
  | 73 => ⟨S1024x4096, .f32⟩
  | 74 => ⟨S1024x4096, .f32⟩
  | 75 => ⟨S1024, .f32⟩
  | 76 => ⟨S1024, .f32⟩
  | 77 => ⟨S1024, .f32⟩
  | 78 => ⟨S4096x1024, .f32⟩
  | 79 => ⟨S4096x1024, .bf16⟩
  | 80 => ⟨S1024x4096, .f32⟩
  | 81 => ⟨S1024x4096, .bf16⟩
  | 82 => ⟨S4096, .f32⟩
  | 83 => ⟨S1x4096, .f32⟩
  | 84 => ⟨S1024, .f32⟩
  | 85 => ⟨S1x1024, .f32⟩
  | 86 => ⟨S4096x1024, .f32⟩
  | 87 => ⟨S4096x1024, .f32⟩
  | 88 => ⟨S8x512x1024, .f32⟩
  | _ => ⟨S8x512x1024, .f32⟩

abbrev hbmTy (i : Nat) : BufTy := match i / 128 with
  | 0 => hbmTy0_0 i
  | 1 => hbmTy0_1 i
  | 2 => hbmTy0_2 i
  | _ => ⟨S8x512x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S1x4096, .f32⟩
  | .local _ .vmem, ⟨4, _⟩ => ⟨S1024x4096, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_c_11 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_c_12 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_c_13 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_c_14 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_c_15 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_c_16 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_c_17 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_c_18 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_c_19 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S_S4096x1024 : S_.BroadcastsInDim S4096x1024 (![] : Fin 0 → Fin S4096x1024.rank)
  bcast_S_S4096 : S_.BroadcastsInDim S4096 (![] : Fin 0 → Fin S4096.rank)
  bcast_S_S1024x4096 : S_.BroadcastsInDim S1024x4096 (![] : Fin 0 → Fin S1024x4096.rank)
  bcast_S_S1024 : S_.BroadcastsInDim S1024 (![] : Fin 0 → Fin S1024.rank)
  slices_S3_S1_0 : S3.Slices ![0] S1
  shapeCasts_S1_S_ : S1.ShapeCasts S_
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1024_S1x1024_1 : S1024.BroadcastsInDim S1x1024 (![1] : Fin 1 → Fin S1x1024.rank)
  bcast_S4096x1_S4096x1024_0_1 : S4096x1.BroadcastsInDim S4096x1024 (![0, 1] : Fin 2 → Fin S4096x1024.rank)
  bcast_S1x1024_S4096x1024_0_1 : S1x1024.BroadcastsInDim S4096x1024 (![0, 1] : Fin 2 → Fin S4096x1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S4096_S1x4096_1 : S4096.BroadcastsInDim S1x4096 (![1] : Fin 1 → Fin S1x4096.rank)
  bcast_S1024x1_S1024x4096_0_1 : S1024x1.BroadcastsInDim S1024x4096 (![0, 1] : Fin 2 → Fin S1024x4096.rank)
  bcast_S1x4096_S1024x4096_0_1 : S1x4096.BroadcastsInDim S1024x4096 (![0, 1] : Fin 2 → Fin S1024x4096.rank)
  slices_S3_S1_1 : S3.Slices ![1] S1
  slices_S3_S1_2 : S3.Slices ![2] S1
  bitsLt_bf16_f32 : FTy.bits .bf16 < FTy.bits .f32
  shapeCasts_S4096_S1x4096 : S4096.ShapeCasts S1x4096
  shapeCasts_S1024_S1x1024 : S1024.ShapeCasts S1x1024
  shapeCasts_S8x512x1024_S4096x1024 : S8x512x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S8x512x1024 : S4096x1024.ShapeCasts S8x512x1024
  dot_S512x1024_S4096x1024_S512x4096_1_1_0_0_n_n_wf : DotDims.WF S512x1024 S4096x1024 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v313) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v306) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v310) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v308) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v312) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v314) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x1024 : Shape := ⟨3, ![8, 512, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S3 : Shape := ⟨1, ![3]⟩
abbrev S_ : Shape := ⟨0, ![]⟩
abbrev S1 : Shape := ⟨1, ![1]⟩
abbrev S4096x1 : Shape := ⟨2, ![4096, 1]⟩
abbrev S1x1024 : Shape := ⟨2, ![1, 1024]⟩
abbrev S1024x1 : Shape := ⟨2, ![1024, 1]⟩
abbrev S1x4096 : Shape := ⟨2, ![1, 4096]⟩
abbrev S8x512x4096 : Shape := ⟨3, ![8, 512, 4096]⟩
abbrev S1x1x4096 : Shape := ⟨3, ![1, 1, 4096]⟩
abbrev S1x1x1024 : Shape := ⟨3, ![1, 1, 1024]⟩

abbrev nBuf : Space → Nat
  | .hbm => 349
  | .vmem => 0
  | .smem => 0
  | _ => 0

abbrev hbmTy0_0 (i : Nat) : BufTy := match i % 128 with
  | 0 => ⟨S8x512x1024, .f32⟩
  | 1 => ⟨S4096x1024, .f32⟩
  | 2 => ⟨S4096, .f32⟩
  | 3 => ⟨S1024x4096, .f32⟩
  | 4 => ⟨S1024, .f32⟩
  | 5 => ⟨S3, .f32⟩
  | 6 => ⟨S3, .f32⟩
  | 7 => ⟨S_, .f32⟩
  | 8 => ⟨S_, .f32⟩
  | 9 => ⟨S_, .f32⟩
  | 10 => ⟨S_, .f32⟩
  | 11 => ⟨S1, .f32⟩
  | 12 => ⟨S3, .f32⟩
  | 13 => ⟨S3, .f32⟩
  | 14 => ⟨S3, .f32⟩
  | 15 => ⟨S_, .f32⟩
  | 16 => ⟨S_, .f32⟩
  | 17 => ⟨S1, .f32⟩
  | 18 => ⟨S3, .f32⟩
  | 19 => ⟨S3, .f32⟩
  | 20 => ⟨S_, .f32⟩
  | 21 => ⟨S_, .f32⟩
  | 22 => ⟨S_, .f32⟩
  | 23 => ⟨S_, .f32⟩
  | 24 => ⟨S1, .f32⟩
  | 25 => ⟨S3, .f32⟩
  | 26 => ⟨S3, .f32⟩
  | 27 => ⟨S3, .f32⟩
  | 28 => ⟨S_, .f32⟩
  | 29 => ⟨S_, .f32⟩
  | 30 => ⟨S1, .f32⟩
  | 31 => ⟨S3, .f32⟩
  | 32 => ⟨S3, .f32⟩
  | 33 => ⟨S1024, .i32⟩
  | 34 => ⟨S4096, .i32⟩
  | 35 => ⟨S_, .f32⟩
  | 36 => ⟨S4096x1024, .f32⟩
  | 37 => ⟨S_, .f32⟩
  | 38 => ⟨S4096, .f32⟩
  | 39 => ⟨S_, .f32⟩
  | 40 => ⟨S1024x4096, .f32⟩
  | 41 => ⟨S_, .f32⟩
  | 42 => ⟨S1024, .f32⟩
  | 43 => ⟨S_, .i32⟩
  | 44 => ⟨S1024, .i32⟩
  | 45 => ⟨S1024, .i1⟩
  | 46 => ⟨S1024, .f32⟩
  | 47 => ⟨S1, .f32⟩
  | 48 => ⟨S_, .f32⟩
  | 49 => ⟨S1, .f32⟩
  | 50 => ⟨S_, .f32⟩
  | 51 => ⟨S_, .f32⟩
  | 52 => ⟨S_, .i32⟩
  | 53 => ⟨S4096, .i32⟩
  | 54 => ⟨S4096, .i1⟩
  | 55 => ⟨S4096, .f32⟩
  | 56 => ⟨S4096x1, .f32⟩
  | 57 => ⟨S4096x1, .f32⟩
  | 58 => ⟨S4096x1, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S4096, .f32⟩
  | 65 => ⟨S4096, .f32⟩
  | 66 => ⟨S4096, .f32⟩
  | 67 => ⟨S1024x1, .f32⟩
  | 68 => ⟨S1024x1, .f32⟩
  | 69 => ⟨S1024x1, .f32⟩
  | 70 => ⟨S1x4096, .f32⟩
  | 71 => ⟨S1024x4096, .f32⟩
  | 72 => ⟨S1024x4096, .f32⟩
  | 73 => ⟨S1024x4096, .f32⟩
  | 74 => ⟨S1024x4096, .f32⟩
  | 75 => ⟨S1024, .f32⟩
  | 76 => ⟨S1024, .f32⟩
  | 77 => ⟨S1024, .f32⟩
  | 78 => ⟨S1, .f32⟩
  | 79 => ⟨S_, .f32⟩
  | 80 => ⟨S1, .f32⟩
  | 81 => ⟨S_, .f32⟩
  | 82 => ⟨S_, .f32⟩
  | 83 => ⟨S_, .i32⟩
  | 84 => ⟨S4096, .i32⟩
  | 85 => ⟨S4096, .i1⟩
  | 86 => ⟨S4096, .f32⟩
  | 87 => ⟨S4096x1, .f32⟩
  | 88 => ⟨S4096x1, .f32⟩
  | 89 => ⟨S4096x1, .f32⟩
  | 90 => ⟨S1x1024, .f32⟩
  | 91 => ⟨S4096x1024, .f32⟩
  | 92 => ⟨S4096x1024, .f32⟩
  | 93 => ⟨S4096x1024, .f32⟩
  | 94 => ⟨S4096x1024, .f32⟩
  | 95 => ⟨S4096, .f32⟩
  | 96 => ⟨S4096, .f32⟩
  | 97 => ⟨S4096, .f32⟩
  | 98 => ⟨S1024x1, .f32⟩
  | 99 => ⟨S1024x1, .f32⟩
  | 100 => ⟨S1024x1, .f32⟩
  | 101 => ⟨S1x4096, .f32⟩
  | 102 => ⟨S1024x4096, .f32⟩
  | 103 => ⟨S1024x4096, .f32⟩
  | 104 => ⟨S1024x4096, .f32⟩
  | 105 => ⟨S1024x4096, .f32⟩
  | 106 => ⟨S1024, .f32⟩
  | 107 => ⟨S1024, .f32⟩
  | 108 => ⟨S1024, .f32⟩
  | 109 => ⟨S1, .f32⟩
  | 110 => ⟨S_, .f32⟩
  | 111 => ⟨S1, .f32⟩
  | 112 => ⟨S_, .f32⟩
  | 113 => ⟨S_, .f32⟩
  | 114 => ⟨S_, .i32⟩
  | 115 => ⟨S4096, .i32⟩
  | 116 => ⟨S4096, .i1⟩
  | 117 => ⟨S4096, .f32⟩
  | 118 => ⟨S4096x1, .f32⟩
  | 119 => ⟨S4096x1, .f32⟩
  | 120 => ⟨S4096x1, .f32⟩
  | 121 => ⟨S1x1024, .f32⟩
  | 122 => ⟨S4096x1024, .f32⟩
  | 123 => ⟨S4096x1024, .f32⟩
  | 124 => ⟨S4096x1024, .f32⟩
  | 125 => ⟨S4096x1024, .f32⟩
  | 126 => ⟨S4096, .f32⟩
  | 127 => ⟨S4096, .f32⟩
  | _ => ⟨S8x512x1024, .f32⟩

abbrev hbmTy0_1 (i : Nat) : BufTy := match i % 128 with
  | 0 => ⟨S4096, .f32⟩
  | 1 => ⟨S1024x1, .f32⟩
  | 2 => ⟨S1024x1, .f32⟩
  | 3 => ⟨S1024x1, .f32⟩
  | 4 => ⟨S1x4096, .f32⟩
  | 5 => ⟨S1024x4096, .f32⟩
  | 6 => ⟨S1024x4096, .f32⟩
  | 7 => ⟨S1024x4096, .f32⟩
  | 8 => ⟨S1024x4096, .f32⟩
  | 9 => ⟨S1024, .f32⟩
  | 10 => ⟨S1024, .f32⟩
  | 11 => ⟨S1024, .f32⟩
  | 12 => ⟨S_, .i32⟩
  | 13 => ⟨S1024, .i32⟩
  | 14 => ⟨S1024, .i1⟩
  | 15 => ⟨S1024, .f32⟩
  | 16 => ⟨S1, .f32⟩
  | 17 => ⟨S_, .f32⟩
  | 18 => ⟨S1, .f32⟩
  | 19 => ⟨S_, .f32⟩
  | 20 => ⟨S_, .f32⟩
  | 21 => ⟨S_, .i32⟩
  | 22 => ⟨S4096, .i32⟩
  | 23 => ⟨S4096, .i1⟩
  | 24 => ⟨S4096, .f32⟩
  | 25 => ⟨S4096x1, .f32⟩
  | 26 => ⟨S4096x1, .f32⟩
  | 27 => ⟨S4096x1, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S4096, .f32⟩
  | 34 => ⟨S4096, .f32⟩
  | 35 => ⟨S4096, .f32⟩
  | 36 => ⟨S1024x1, .f32⟩
  | 37 => ⟨S1024x1, .f32⟩
  | 38 => ⟨S1024x1, .f32⟩
  | 39 => ⟨S1x4096, .f32⟩
  | 40 => ⟨S1024x4096, .f32⟩
  | 41 => ⟨S1024x4096, .f32⟩
  | 42 => ⟨S1024x4096, .f32⟩
  | 43 => ⟨S1024x4096, .f32⟩
  | 44 => ⟨S1024, .f32⟩
  | 45 => ⟨S1024, .f32⟩
  | 46 => ⟨S1024, .f32⟩
  | 47 => ⟨S1, .f32⟩
  | 48 => ⟨S_, .f32⟩
  | 49 => ⟨S1, .f32⟩
  | 50 => ⟨S_, .f32⟩
  | 51 => ⟨S_, .f32⟩
  | 52 => ⟨S_, .i32⟩
  | 53 => ⟨S4096, .i32⟩
  | 54 => ⟨S4096, .i1⟩
  | 55 => ⟨S4096, .f32⟩
  | 56 => ⟨S4096x1, .f32⟩
  | 57 => ⟨S4096x1, .f32⟩
  | 58 => ⟨S4096x1, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S4096, .f32⟩
  | 65 => ⟨S4096, .f32⟩
  | 66 => ⟨S4096, .f32⟩
  | 67 => ⟨S1024x1, .f32⟩
  | 68 => ⟨S1024x1, .f32⟩
  | 69 => ⟨S1024x1, .f32⟩
  | 70 => ⟨S1x4096, .f32⟩
  | 71 => ⟨S1024x4096, .f32⟩
  | 72 => ⟨S1024x4096, .f32⟩
  | 73 => ⟨S1024x4096, .f32⟩
  | 74 => ⟨S1024x4096, .f32⟩
  | 75 => ⟨S1024, .f32⟩
  | 76 => ⟨S1024, .f32⟩
  | 77 => ⟨S1024, .f32⟩
  | 78 => ⟨S1, .f32⟩
  | 79 => ⟨S_, .f32⟩
  | 80 => ⟨S1, .f32⟩
  | 81 => ⟨S_, .f32⟩
  | 82 => ⟨S_, .f32⟩
  | 83 => ⟨S_, .i32⟩
  | 84 => ⟨S4096, .i32⟩
  | 85 => ⟨S4096, .i1⟩
  | 86 => ⟨S4096, .f32⟩
  | 87 => ⟨S4096x1, .f32⟩
  | 88 => ⟨S4096x1, .f32⟩
  | 89 => ⟨S4096x1, .f32⟩
  | 90 => ⟨S1x1024, .f32⟩
  | 91 => ⟨S4096x1024, .f32⟩
  | 92 => ⟨S4096x1024, .f32⟩
  | 93 => ⟨S4096x1024, .f32⟩
  | 94 => ⟨S4096x1024, .f32⟩
  | 95 => ⟨S4096, .f32⟩
  | 96 => ⟨S4096, .f32⟩
  | 97 => ⟨S4096, .f32⟩
  | 98 => ⟨S1024x1, .f32⟩
  | 99 => ⟨S1024x1, .f32⟩
  | 100 => ⟨S1024x1, .f32⟩
  | 101 => ⟨S1x4096, .f32⟩
  | 102 => ⟨S1024x4096, .f32⟩
  | 103 => ⟨S1024x4096, .f32⟩
  | 104 => ⟨S1024x4096, .f32⟩
  | 105 => ⟨S1024x4096, .f32⟩
  | 106 => ⟨S1024, .f32⟩
  | 107 => ⟨S1024, .f32⟩
  | 108 => ⟨S1024, .f32⟩
  | 109 => ⟨S_, .i32⟩
  | 110 => ⟨S1024, .i32⟩
  | 111 => ⟨S1024, .i1⟩
  | 112 => ⟨S1024, .f32⟩
  | 113 => ⟨S1, .f32⟩
  | 114 => ⟨S_, .f32⟩
  | 115 => ⟨S1, .f32⟩
  | 116 => ⟨S_, .f32⟩
  | 117 => ⟨S_, .f32⟩
  | 118 => ⟨S_, .i32⟩
  | 119 => ⟨S4096, .i32⟩
  | 120 => ⟨S4096, .i1⟩
  | 121 => ⟨S4096, .f32⟩
  | 122 => ⟨S4096x1, .f32⟩
  | 123 => ⟨S4096x1, .f32⟩
  | 124 => ⟨S4096x1, .f32⟩
  | 125 => ⟨S1x1024, .f32⟩
  | 126 => ⟨S4096x1024, .f32⟩
  | 127 => ⟨S4096x1024, .f32⟩
  | _ => ⟨S8x512x1024, .f32⟩

abbrev hbmTy0_2 (i : Nat) : BufTy := match i % 128 with
  | 0 => ⟨S4096x1024, .f32⟩
  | 1 => ⟨S4096x1024, .f32⟩
  | 2 => ⟨S4096, .f32⟩
  | 3 => ⟨S4096, .f32⟩
  | 4 => ⟨S4096, .f32⟩
  | 5 => ⟨S1024x1, .f32⟩
  | 6 => ⟨S1024x1, .f32⟩
  | 7 => ⟨S1024x1, .f32⟩
  | 8 => ⟨S1x4096, .f32⟩
  | 9 => ⟨S1024x4096, .f32⟩
  | 10 => ⟨S1024x4096, .f32⟩
  | 11 => ⟨S1024x4096, .f32⟩
  | 12 => ⟨S1024x4096, .f32⟩
  | 13 => ⟨S1024, .f32⟩
  | 14 => ⟨S1024, .f32⟩
  | 15 => ⟨S1024, .f32⟩
  | 16 => ⟨S1, .f32⟩
  | 17 => ⟨S_, .f32⟩
  | 18 => ⟨S1, .f32⟩
  | 19 => ⟨S_, .f32⟩
  | 20 => ⟨S_, .f32⟩
  | 21 => ⟨S_, .i32⟩
  | 22 => ⟨S4096, .i32⟩
  | 23 => ⟨S4096, .i1⟩
  | 24 => ⟨S4096, .f32⟩
  | 25 => ⟨S4096x1, .f32⟩
  | 26 => ⟨S4096x1, .f32⟩
  | 27 => ⟨S4096x1, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S4096, .f32⟩
  | 34 => ⟨S4096, .f32⟩
  | 35 => ⟨S4096, .f32⟩
  | 36 => ⟨S1024x1, .f32⟩
  | 37 => ⟨S1024x1, .f32⟩
  | 38 => ⟨S1024x1, .f32⟩
  | 39 => ⟨S1x4096, .f32⟩
  | 40 => ⟨S1024x4096, .f32⟩
  | 41 => ⟨S1024x4096, .f32⟩
  | 42 => ⟨S1024x4096, .f32⟩
  | 43 => ⟨S1024x4096, .f32⟩
  | 44 => ⟨S1024, .f32⟩
  | 45 => ⟨S1024, .f32⟩
  | 46 => ⟨S1024, .f32⟩
  | 47 => ⟨S1, .f32⟩
  | 48 => ⟨S_, .f32⟩
  | 49 => ⟨S1, .f32⟩
  | 50 => ⟨S_, .f32⟩
  | 51 => ⟨S_, .f32⟩
  | 52 => ⟨S_, .i32⟩
  | 53 => ⟨S4096, .i32⟩
  | 54 => ⟨S4096, .i1⟩
  | 55 => ⟨S4096, .f32⟩
  | 56 => ⟨S4096x1, .f32⟩
  | 57 => ⟨S4096x1, .f32⟩
  | 58 => ⟨S4096x1, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S4096, .f32⟩
  | 65 => ⟨S4096, .f32⟩
  | 66 => ⟨S4096, .f32⟩
  | 67 => ⟨S1024x1, .f32⟩
  | 68 => ⟨S1024x1, .f32⟩
  | 69 => ⟨S1024x1, .f32⟩
  | 70 => ⟨S1x4096, .f32⟩
  | 71 => ⟨S1024x4096, .f32⟩
  | 72 => ⟨S1024x4096, .f32⟩
  | 73 => ⟨S1024x4096, .f32⟩
  | 74 => ⟨S1024x4096, .f32⟩
  | 75 => ⟨S1024, .f32⟩
  | 76 => ⟨S1024, .f32⟩
  | 77 => ⟨S1024, .f32⟩
  | 78 => ⟨S4096x1024, .f32⟩
  | 79 => ⟨S8x512x4096, .f32⟩
  | 80 => ⟨S4096, .f32⟩
  | 81 => ⟨S1x1x4096, .f32⟩
  | 82 => ⟨S8x512x4096, .f32⟩
  | 83 => ⟨S8x512x4096, .f32⟩
  | 84 => ⟨S_, .f32⟩
  | 85 => ⟨S8x512x4096, .f32⟩
  | 86 => ⟨S8x512x4096, .f32⟩
  | 87 => ⟨S1024x4096, .f32⟩
  | 88 => ⟨S8x512x1024, .f32⟩
  | 89 => ⟨S1024, .f32⟩
  | 90 => ⟨S1x1x1024, .f32⟩
  | 91 => ⟨S8x512x1024, .f32⟩
  | 92 => ⟨S8x512x1024, .f32⟩
  | _ => ⟨S8x512x1024, .f32⟩

abbrev hbmTy (i : Nat) : BufTy := match i / 128 with
  | 0 => hbmTy0_0 i
  | 1 => hbmTy0_1 i
  | 2 => hbmTy0_2 i
  | _ => ⟨S8x512x1024, .f32⟩

abbrev bufTy : (tb : Table) → Fin (tcTables nBuf tb) → BufTy
  | .hbm, ⟨i, _⟩ => hbmTy i
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_c_11 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_c_12 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_c_13 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_c_14 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_c_15 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_c_16 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_c_17 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_c_18 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_c_19 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_call0_cst : Ref sig .tc := ⟨.hbm, 340, rfl⟩
abbrev main_call0_v0 : Ref sig .tc := ⟨.hbm, 341, rfl⟩
abbrev main_v311 : Ref sig .tc := ⟨.hbm, 342, rfl⟩
abbrev main_v312 : Ref sig .tc := ⟨.hbm, 343, rfl⟩
abbrev main_v313 : Ref sig .tc := ⟨.hbm, 344, rfl⟩
abbrev main_v314 : Ref sig .tc := ⟨.hbm, 345, rfl⟩
abbrev main_v315 : Ref sig .tc := ⟨.hbm, 346, rfl⟩
abbrev main_v316 : Ref sig .tc := ⟨.hbm, 347, rfl⟩
abbrev main_v317 : Ref sig .tc := ⟨.hbm, 348, rfl⟩

abbrev nD : Nat := 1
abbrev τ : Topo := Topo.v7x

variable {F : FTy → Type} [FloatOps F]

class Facts₀ : Prop where
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S_S4096x1024 : S_.BroadcastsInDim S4096x1024 (![] : Fin 0 → Fin S4096x1024.rank)
  bcast_S_S4096 : S_.BroadcastsInDim S4096 (![] : Fin 0 → Fin S4096.rank)
  bcast_S_S1024x4096 : S_.BroadcastsInDim S1024x4096 (![] : Fin 0 → Fin S1024x4096.rank)
  bcast_S_S1024 : S_.BroadcastsInDim S1024 (![] : Fin 0 → Fin S1024.rank)
  slices_S3_S1_0 : S3.Slices ![0] S1
  shapeCasts_S1_S_ : S1.ShapeCasts S_
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1024_S1x1024_1 : S1024.BroadcastsInDim S1x1024 (![1] : Fin 1 → Fin S1x1024.rank)
  bcast_S4096x1_S4096x1024_0_1 : S4096x1.BroadcastsInDim S4096x1024 (![0, 1] : Fin 2 → Fin S4096x1024.rank)
  bcast_S1x1024_S4096x1024_0_1 : S1x1024.BroadcastsInDim S4096x1024 (![0, 1] : Fin 2 → Fin S4096x1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S4096_S1x4096_1 : S4096.BroadcastsInDim S1x4096 (![1] : Fin 1 → Fin S1x4096.rank)
  bcast_S1024x1_S1024x4096_0_1 : S1024x1.BroadcastsInDim S1024x4096 (![0, 1] : Fin 2 → Fin S1024x4096.rank)
  bcast_S1x4096_S1024x4096_0_1 : S1x4096.BroadcastsInDim S1024x4096 (![0, 1] : Fin 2 → Fin S1024x4096.rank)
  slices_S3_S1_1 : S3.Slices ![1] S1
  slices_S3_S1_2 : S3.Slices ![2] S1
  bcast_S4096_S1x1x4096_2 : S4096.BroadcastsInDim S1x1x4096 (![2] : Fin 1 → Fin S1x1x4096.rank)
  bcast_S1x1x4096_S8x512x4096_0_1_2 : S1x1x4096.BroadcastsInDim S8x512x4096 (![0, 1, 2] : Fin 3 → Fin S8x512x4096.rank)
  bcast_S_S8x512x4096 : S_.BroadcastsInDim S8x512x4096 (![] : Fin 0 → Fin S8x512x4096.rank)
  bcast_S1024_S1x1x1024_2 : S1024.BroadcastsInDim S1x1x1024 (![2] : Fin 1 → Fin S1x1x1024.rank)
  bcast_S1x1x1024_S8x512x1024_0_1_2 : S1x1x1024.BroadcastsInDim S8x512x1024 (![0, 1, 2] : Fin 3 → Fin S8x512x1024.rank)
  dot_S8x512x1024_S4096x1024_S8x512x4096_2_1_01_0_n_n_wf : DotDims.WF S8x512x1024 S4096x1024 S8x512x4096 [2] [1] [0, 1] [0] [] []
  dot_S8x512x4096_S1024x4096_S8x512x1024_2_1_01_0_n_n_wf : DotDims.WF S8x512x4096 S1024x4096 S8x512x1024 [2] [1] [0, 1] [0] [] []

variable [Facts₀]

def dot_S8x512x1024_S4096x1024_S8x512x4096_2_1_01_0_n_n : DotDims S8x512x1024 S4096x1024 S8x512x4096 where
  lhsContracting := [2]
  rhsContracting := [1]
  lhsNonContracting := [0, 1]
  rhsNonContracting := [0]
  lhsBatch := []
  rhsBatch := []
  wf := dot_S8x512x1024_S4096x1024_S8x512x4096_2_1_01_0_n_n_wf
def dot_S8x512x4096_S1024x4096_S8x512x1024_2_1_01_0_n_n : DotDims S8x512x4096 S1024x4096 S8x512x1024 where
  lhsContracting := [2]
  rhsContracting := [1]
  lhsNonContracting := [0, 1]
  rhsNonContracting := [0]
  lhsBatch := []
  rhsBatch := []
  wf := dot_S8x512x4096_S1024x4096_S8x512x1024_2_1_01_0_n_n_wf

class Facts : Prop extends Facts₀ where

variable [Facts]
-- ==== Proof.FfnSpec.lean ====
/-
  The two-layer feed-forward map both programs compute, stated once, token by token.

  A token is a vector `u` of 1024 input features. Its hidden unit `h` (of 4096) is
      hidden u h = max (∑ k, u k · A0 (h, k) + β0 h) 0,
  and its output feature `d` (of 1024) is
      out u d = ∑ h, hidden u h · A1 (d, h) + β1 d.
  Both weight matrices are contracted along their SECOND axis (the first layer's rows are hidden units, the second
  layer's rows are output features), so no transpose appears anywhere.

  The 4096 tokens are laid out either as the rows of a 4096 × 1024 matrix (`rows`) or as an 8 × 512 grid of
  positions (`toks`); row `r` is position `(r / 512, r % 512)`. Because the map acts on each token separately,
  reshaping the token grid to rows, applying the map row by row, and reshaping back is the map applied position by
  position (`toks_eq_cast`). Nothing here needs the entries to be finite: the two sides are the same sums of the same
  products, only indexed differently.
-/
import Idealize.ShloMosaic.PureOps.Ideal
import Idealize.ShloMosaic.Lib.ValueIdx
import Idealize.ShloMosaic.Lib.Pipeline.Value

noncomputable section

open scoped BigOperators

namespace Cert.Ffn

open Idealize.ShloMosaic Idealize.ShloMosaic.ValueIdx

/-- The token grid: batch 8, position 512, feature 1024. -/
abbrev Tok : Shape := ⟨3, ![8, 512, 1024]⟩
/-- The same 4096 tokens as rows. -/
abbrev Row : Shape := ⟨2, ![4096, 1024]⟩
/-- First layer: hidden unit by input feature. -/
abbrev Lay0 : Shape := ⟨2, ![4096, 1024]⟩
/-- Second layer: output feature by hidden unit. -/
abbrev Lay1 : Shape := ⟨2, ![1024, 4096]⟩

/-- Hidden unit `h` of the token with input features `u`: the rectified affine form. The zero is kept as the bit
    pattern both programs write, so it is never evaluated. -/
def hidden (u : Fin 1024 → EReal) (A0 : Lay0.Idx → EReal) (β0 : Fin 4096 → EReal) (h : Fin 4096) : EReal :=
  max ((∑ k : Fin 1024, u k * A0 (ix2 h k)) + β0 h) (Ideal.ofBits .f32 0x00000000#32)

/-- Output feature `d` of that token. -/
def out (u : Fin 1024 → EReal) (A0 : Lay0.Idx → EReal) (β0 : Fin 4096 → EReal) (A1 : Lay1.Idx → EReal)
    (β1 : Fin 1024 → EReal) (d : Fin 1024) : EReal :=
  (∑ h : Fin 4096, hidden u A0 β0 h * A1 (ix2 d h)) + β1 d

/-- The map on tokens laid out as rows. -/
def rows (X : Row.Idx → EReal) (A0 : Lay0.Idx → EReal) (β0 : Fin 4096 → EReal) (A1 : Lay1.Idx → EReal)
    (β1 : Fin 1024 → EReal) : Row.Idx → EReal :=
  fun j => out (fun k => X (ix2 (j 0) k)) A0 β0 A1 β1 (j 1)

/-- The map on tokens laid out as a batch of sequences. -/
def toks (x : Tok.Idx → EReal) (A0 : Lay0.Idx → EReal) (β0 : Fin 4096 → EReal) (A1 : Lay1.Idx → EReal)
    (β1 : Fin 1024 → EReal) : Tok.Idx → EReal :=
  fun i => out (fun k => x (ix3 (i 0) (i 1) k)) A0 β0 A1 β1 (i 2)

/-- Position `(b, s)` of the grid is row `512 b + s`: both have the same place in row-major order, feature by
    feature. -/
theorem row_of_pos (x : Tok.Idx → EReal) (h₁ : Tok.ShapeCasts Row) (b : Fin 8) (s : Fin 512) (r : Fin 4096)
    (hr : r.val = b.val * 512 + s.val) (k : Fin 1024) : shapeCast Row x h₁ (ix2 r k) = x (ix3 b s k) :=
  shapeCast_apply x h₁ (ix2 r k) (ix3 b s k) (by
    rw [Shape.rowMajor_val_two, Shape.rowMajor_val_three]
    show (b.val * 512 + s.val) * 1024 + k.val = r.val * 1024 + k.val
    rw [hr])

/-- Reshape to rows, map every row, reshape back: the map at every position. -/
theorem toks_eq_cast (x : Tok.Idx → EReal) (A0 : Lay0.Idx → EReal) (β0 : Fin 4096 → EReal) (A1 : Lay1.Idx → EReal)
    (β1 : Fin 1024 → EReal) (h₁ : Tok.ShapeCasts Row) (h₂ : Row.ShapeCasts Tok) :
    shapeCast Tok (rows (shapeCast Row x h₁) A0 β0 A1 β1) h₂ = toks x A0 β0 A1 β1 := by
  funext i
  obtain ⟨b, s, d, rfl⟩ : ∃ (b : Fin 8) (s : Fin 512) (d : Fin 1024), i = ix3 b s d := ⟨i 0, i 1, i 2, eq_ix3 i⟩
  have hb := b.isLt
  have hs := s.isLt
  rw [shapeCast_apply _ h₂ (ix3 b s d) (ix2 (⟨b.val * 512 + s.val, by omega⟩ : Fin 4096) d) (by
    rw [Shape.rowMajor_val_two, Shape.rowMajor_val_three]; rfl)]
  show out (fun k => shapeCast Row x h₁ (ix2 (⟨b.val * 512 + s.val, by omega⟩ : Fin 4096) k)) A0 β0 A1 β1 d
    = out (fun k => x (ix3 b s k)) A0 β0 A1 β1 d
  exact congrArg (fun u => out u A0 β0 A1 β1 d) (funext fun k => row_of_pos x h₁ b s _ rfl k)

end Cert.Ffn

end
-- ==== Proof.RefIsSpec.lean ====
/-
  The reference, read at an index, is the feed-forward map position by position.

  The reference forms the two effective weight matrices and bias vectors from the architecture weights (the long
  prefix of host operations, which this module never opens: they enter only as the four stages named below), then
      h   = max (x ·₂ A0 + β0) 0      (contracting the feature axis of x with the second axis of A0)
      out = h ·₂ A1 + β1              (contracting the hidden axis of h with the second axis of A1)
  with each bias broadcast over batch and position. Read at `(b, s, d)` through the generated one-operation lemmas,
  that is FfnSpec's `toks` at the same index.
-/
import proofs.«145027_j21663815041809_2_alg».proof.Proof.RefRead
import proofs.«145027_j21663815041809_2_alg».proof.Proof.FfnSpec

set_option maxRecDepth 8192

noncomputable section

open scoped BigOperators

namespace Cert.ReferenceIdeal.RefValue

open Cert.ReferenceIdeal Cert.ReferenceIdeal.Read Idealize.ShloMosaic Idealize.ShloMosaic.ValueIdx

/-- The reference's last stage is the feed-forward map over its own effective weights and biases. -/
theorem ref_is_toks (x0 : (⟨S8x512x1024, .f32⟩ : BufTy).Contents (Elt Ideal)) (x1 : (⟨S4096x1024, .f32⟩ : BufTy).Contents (Elt Ideal))
    (x2 : (⟨S4096, .f32⟩ : BufTy).Contents (Elt Ideal)) (x3 : (⟨S1024x4096, .f32⟩ : BufTy).Contents (Elt Ideal))
    (x4 : (⟨S1024, .f32⟩ : BufTy).Contents (Elt Ideal)) (x5 x6 : (⟨S3, .f32⟩ : BufTy).Contents (Elt Ideal)) :
    val_main_v317 (F := Ideal) x0 x1 x2 x3 x4 x5 x6
      = Cert.Ffn.toks x0 (val_main_v305 (F := Ideal) x1 x5 x6) (fun h => val_main_v307 (F := Ideal) x2 x5 x6 (ix1 h))
          (val_main_v312 (F := Ideal) x3 x5 x6) (fun d => val_main_v314 (F := Ideal) x4 x5 x6 (ix1 d)) := by
  funext i
  obtain ⟨b, s, d, rfl⟩ : ∃ (b : Fin 8) (s : Fin 512) (d : Fin 1024), i = ix3 b s d := ⟨i 0, i 1, i 2, eq_ix3 i⟩
  rw [val_main_v317_apply, val_main_v313_apply, val_main_v316_apply, val_main_v315_apply]
  show _ = Cert.Ffn.out (fun k => x0 (ix3 b s k)) (val_main_v305 (F := Ideal) x1 x5 x6)
    (fun h => val_main_v307 (F := Ideal) x2 x5 x6 (ix1 h)) (val_main_v312 (F := Ideal) x3 x5 x6)
    (fun d => val_main_v314 (F := Ideal) x4 x5 x6 (ix1 d)) d
  unfold Cert.Ffn.out
  -- the second product contracts the hidden axis: position (b, s) of the hidden array against row d of the matrix
  have e1 : ∀ h : Fin 4096, lidx_main_v313 (ix3 b s d) h = ix3 b s h := fun h => funext fun a => by
    match a with
    | ⟨0, _⟩ => rfl
    | ⟨1, _⟩ => rfl
    | ⟨2, _⟩ => rfl
  have e2 : ∀ h : Fin 4096, ridx_main_v313 (ix3 b s d) h = ix2 d h := fun h => funext fun a => by
    match a with
    | ⟨0, _⟩ => rfl
    | ⟨1, _⟩ => rfl
  -- the second bias is broadcast over batch and position
  have e3 : idx_main_v315 (idx_main_v316 (ix3 b s d)) = ix1 d := funext fun a => by
    match a with
    | ⟨0, _⟩ => rfl
  rw [e3]
  refine congrArg (· + val_main_v314 (F := Ideal) x4 x5 x6 (ix1 d)) (Finset.sum_congr rfl fun h _ => ?_)
  rw [e1, e2]
  refine congrArg (· * val_main_v312 (F := Ideal) x3 x5 x6 (ix2 d h)) ?_
  rw [val_main_v311_apply, val_main_v310_apply, val_main_v306_apply, val_main_v309_apply, val_main_v308_apply,
    val_main_call0_v0_apply, val_main_call0_cst_apply]
  unfold Cert.Ffn.hidden
  -- the first product contracts the feature axis: position (b, s) of the tokens against row h of the matrix
  have f1 : ∀ k : Fin 1024, lidx_main_v306 (ix3 b s h) k = ix3 b s k := fun k => funext fun a => by
    match a with
    | ⟨0, _⟩ => rfl
    | ⟨1, _⟩ => rfl
    | ⟨2, _⟩ => rfl
  have f2 : ∀ k : Fin 1024, ridx_main_v306 (ix3 b s h) k = ix2 h k := fun k => funext fun a => by
    match a with
    | ⟨0, _⟩ => rfl
    | ⟨1, _⟩ => rfl
  -- the first bias is broadcast over batch and position
  have f3 : idx_main_v308 (idx_main_v309 (ix3 b s h)) = ix1 h := funext fun a => by
    match a with
    | ⟨0, _⟩ => rfl
  simp only [f1, f2, f3]
  rfl

end Cert.ReferenceIdeal.RefValue

end
-- ==== Proof.Payload.lean ====
/-
  The kernel body's one stored value, read at an entry.

  The body loads a tile of 512 token rows `x`, the whole first-layer matrix `a0` (4096 × 1024), the first bias as a
  1 × 4096 row `b0`, the whole second-layer matrix `a1` (1024 × 4096) and the second bias as a 1 × 1024 row `b1`, and
  stores, at row `p` and column `q` of the tile,
      ∑ h, max (∑ k, x (p, k) · a0 (h, k) + b0 (0, h)) 0 · a1 (q, h) + b1 (0, q).
  At the ideal values the two narrowings to the 16-bit format are the identity, each matrix product into the zero
  accumulator is the plain sum over the contracted coordinate — here the SECOND coordinate of both factors —, and a
  1 × n row broadcast down 512 rows reads its column. So the stored value at `(p, q)` is the feed-forward map of
  FfnSpec applied to row `p` of the tile.
-/
import proofs.«145027_j21663815041809_2_alg».proof.Proof.Gen.KernelIdeal.Skeleton
import proofs.«145027_j21663815041809_2_alg».proof.Proof.FfnSpec
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The first product: rows of the tile against rows of the first-layer matrix -/

theorem lhs1_0 (i : S512x4096.Idx) (q : dot_S512x1024_S4096x1024_S512x4096_1_1_0_0_n_n.contr.Idx) :
    (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
theorem lhs1_1 (i : S512x4096.Idx) (q : dot_S512x1024_S4096x1024_S512x4096_1_1_0_0_n_n.contr.Idx) :
    (dot_S512x1024_S4096x1024_S512x4096_1_1_0_0_n_n.lhsIdx i q 1).val = (q ⟨0, by decide⟩).val :=
  dot_S512x1024_S4096x1024_S512x4096_1_1_0_0_n_n.lhsIdx_val_of_single rfl i q
theorem rhs1_0 (i : S512x4096.Idx) (q : dot_S512x1024_S4096x1024_S512x4096_1_1_0_0_n_n.contr.Idx) :
    (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
theorem rhs1_1 (i : S512x4096.Idx) (q : dot_S512x1024_S4096x1024_S512x4096_1_1_0_0_n_n.contr.Idx) :
    (dot_S512x1024_S4096x1024_S512x4096_1_1_0_0_n_n.rhsIdx i q 1).val = (q ⟨0, by decide⟩).val :=
  dot_S512x1024_S4096x1024_S512x4096_1_1_0_0_n_n.rhsIdx_val_of_single rfl i q

/-- Entry `(p, h)` of the first product is the inner product of row `p` of the tile with row `h` of the matrix. -/
theorem mm1_apply (l : FVec Ideal S512x1024 .bf16) (r : FVec Ideal S4096x1024 .bf16) (p : Fin 512) (h : Fin 4096) :
    matmul dot_S512x1024_S4096x1024_S512x4096_1_1_0_0_n_n none l r (constant S512x4096 .f32 0x00000000#32) (ix2 p h)
      = ∑ k : Fin 1024, l (ix2 p k) * r (ix2 h k) := by
  show FloatOps.matmul _ _ l r _ _ = _
  rw [Ideal.matmul_constant_zero_apply, ← Equiv.sum_comp (ValueIdx.contrEquiv1 dot_S512x1024_S4096x1024_S512x4096_1_1_0_0_n_n 1024 rfl rfl).symm]
  refine Finset.sum_congr rfl fun k _ => ?_
  have hk := ValueIdx.contrEquiv1_symm_val dot_S512x1024_S4096x1024_S512x4096_1_1_0_0_n_n 1024 rfl rfl k
  have el : dot_S512x1024_S4096x1024_S512x4096_1_1_0_0_n_n.lhsIdx (ix2 p h) ((ValueIdx.contrEquiv1 dot_S512x1024_S4096x1024_S512x4096_1_1_0_0_n_n 1024 rfl rfl).symm k) = ix2 p k := funext fun a => Fin.ext (by
    match a with
    | ⟨0, _⟩ => exact lhs1_0 _ _
    | ⟨1, _⟩ => exact (lhs1_1 _ _).trans hk)
  have er : dot_S512x1024_S4096x1024_S512x4096_1_1_0_0_n_n.rhsIdx (ix2 p h) ((ValueIdx.contrEquiv1 dot_S512x1024_S4096x1024_S512x4096_1_1_0_0_n_n 1024 rfl rfl).symm k) = ix2 h k := funext fun a => Fin.ext (by
    match a with
    | ⟨0, _⟩ => exact rhs1_0 _ _
    | ⟨1, _⟩ => exact (rhs1_1 _ _).trans hk)
  rw [el, er]

/-! ## The second product: hidden rows against rows of the second-layer matrix -/

theorem lhs2_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs2_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem rhs2_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs2_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- Entry `(p, q)` of the second product is the inner product of hidden row `p` with row `q` of the matrix. -/
theorem mm2_apply (l : FVec Ideal S512x4096 .bf16) (r : FVec Ideal S1024x4096 .bf16) (p : Fin 512) (q : Fin 1024) :
    matmul dot_S512x4096_S1024x4096_S512x1024_1_1_0_0_n_n none l r (constant S512x1024 .f32 0x00000000#32) (ix2 p q)
      = ∑ h : Fin 4096, l (ix2 p h) * r (ix2 q h) := by
  show FloatOps.matmul _ _ l r _ _ = _
  rw [Ideal.matmul_constant_zero_apply, ← Equiv.sum_comp (ValueIdx.contrEquiv1 dot_S512x4096_S1024x4096_S512x1024_1_1_0_0_n_n 4096 rfl rfl).symm]
  refine Finset.sum_congr rfl fun k _ => ?_
  have hk := ValueIdx.contrEquiv1_symm_val dot_S512x4096_S1024x4096_S512x1024_1_1_0_0_n_n 4096 rfl rfl k
  have el : dot_S512x4096_S1024x4096_S512x1024_1_1_0_0_n_n.lhsIdx (ix2 p q) ((ValueIdx.contrEquiv1 dot_S512x4096_S1024x4096_S512x1024_1_1_0_0_n_n 4096 rfl rfl).symm k) = ix2 p k := funext fun a => Fin.ext (by
    match a with
    | ⟨0, _⟩ => exact lhs2_0 _ _
    | ⟨1, _⟩ => exact (lhs2_1 _ _).trans hk)
  have er : dot_S512x4096_S1024x4096_S512x1024_1_1_0_0_n_n.rhsIdx (ix2 p q) ((ValueIdx.contrEquiv1 dot_S512x4096_S1024x4096_S512x1024_1_1_0_0_n_n 4096 rfl rfl).symm k) = ix2 q k := funext fun a => Fin.ext (by
    match a with
    | ⟨0, _⟩ => exact rhs2_0 _ _
    | ⟨1, _⟩ => exact (rhs2_1 _ _).trans hk)
  rw [el, er]

/-! ## A bias row broadcast down the tile -/

/-- A 1 × 4096 row broadcast to 512 rows reads its column. -/
theorem row4096_apply (v : FVec Ideal S1x4096 .f32) (p : Fin 512) (h : Fin 4096) :
    broadcastTo S512x4096 v broadcasts_S1x4096_S512x4096 (ix2 p h) = v (ix2 0 h) :=
  broadcastTo_apply v broadcasts_S1x4096_S512x4096 (ix2 p h) (ix2 0 h) (fun a => by
    match a with
    | ⟨0, _⟩ => rfl
    | ⟨1, _⟩ => rfl)

/-- A 1 × 1024 row broadcast to 512 rows reads its column. -/
theorem row1024_apply (v : FVec Ideal S1x1024 .f32) (p : Fin 512) (q : Fin 1024) :
    broadcastTo S512x1024 v broadcasts_S1x1024_S512x1024 (ix2 p q) = v (ix2 0 q) :=
  broadcastTo_apply v broadcasts_S1x1024_S512x1024 (ix2 p q) (ix2 0 q) (fun a => by
    match a with
    | ⟨0, _⟩ => rfl
    | ⟨1, _⟩ => rfl)

/-! ## The stored value -/

/-- The body's stored value at row `p`, column `q` of the tile is output feature `q` of the token in row `p`. -/
theorem pay_apply (x : Vec Ideal S512x1024 .f32) (a0 : Vec Ideal S4096x1024 .bf16) (b0 : Vec Ideal S1x4096 .f32)
    (a1 : Vec Ideal S1024x4096 .bf16) (b1 : Vec Ideal S1x1024 .f32) (p : Fin 512) (q : Fin 1024) :
    k0_pay1 (F := Ideal) x a0 b0 a1 b1 (ix2 p q)
      = Cert.Ffn.out (fun k => x (ix2 p k)) a0 (fun h => b0 (ix2 0 h)) a1 (fun d => b1 (ix2 0 d)) q := by
  unfold k0_pay1
  simp only [shapeCast_self]
  rw [addf_apply, mm2_apply, row1024_apply]
  unfold Cert.Ffn.out Cert.Ffn.hidden
  refine congrArg (· + b1 (ix2 0 q)) (Finset.sum_congr rfl fun h _ => ?_)
  rw [truncf_apply, maximumf_apply, addf_apply, mm1_apply, row4096_apply, broadcast_apply]
  rfl

end Cert.KernelIdeal.Body

end
-- ==== Proof.Blocks.lean ====
/-
  From tiles to the whole array, and through the closing reshape.

  The region walks 8 grid points; point `t` reads rows `512 t … 512 t + 511` of the token matrix, the whole of both
  weight matrices and both bias rows, and writes back rows `512 t … 512 t + 511` of the output matrix. By Payload,
  what it writes at row `p`, column `q` of its tile is the feed-forward map of FfnSpec at row `512 t + p`, column
  `q`: the tile is a block of ONE whole-matrix function `G`, the row form of the map over the arrays as the region
  finds them. The 8 tiles cover the 4096 rows (row `r` lies in tile `r / 512`), so after the region the output matrix
  IS `G`; the one host operation after the region reshapes it to the 8 × 512 × 1024 token grid.
-/
import proofs.«145027_j21663815041809_2_alg».proof.Proof.Gen.KernelIdeal.Frame
import proofs.«145027_j21663815041809_2_alg».proof.Proof.Payload
import proofs.«145027_j21663815041809_2_alg».proof.Proof.FfnSpec
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output matrix as one function of the arrays the region finds: the row form of the feed-forward map. -/
def G (c : Dev nD) : S4096x1024.Idx → EReal :=
  Cert.Ffn.rows (V m c main_v313) (V m c main_v306) (fun h => V m c main_v310 (ix2 0 h)) (V m c main_v308)
    (fun d => V m c main_v312 (ix2 0 d))

/-- The body's stored value as a function on the tile. -/
theorem pay_fun (x : Vec Ideal S512x1024 .f32) (a0 : Vec Ideal S4096x1024 .bf16) (b0 : Vec Ideal S1x4096 .f32)
    (a1 : Vec Ideal S1024x4096 .bf16) (b1 : Vec Ideal S1x1024 .f32) :
    k0_pay1 (F := Ideal) x a0 b0 a1 b1
      = fun j => Cert.Ffn.out (fun k => x (ix2 (j 0) k)) a0 (fun h => b0 (ix2 0 h)) a1 (fun d => b1 (ix2 0 d)) (j 1) := by
  funext j
  obtain ⟨p, q, rfl⟩ : ∃ (p : Fin 512) (q : Fin 1024), j = ix2 p q := ⟨j 0, j 1, eq_ix2 j⟩
  exact Cert.KernelIdeal.Body.pay_apply x a0 b0 a1 b1 p q

/-- The printed index maps over the 8 points: the token tile and the output tile move together down the rows, one
    tile per point; every other window stays on the whole of its array. -/
theorem idx_facts : ∀ t : Fin cfg0.N,
    win0_0.index t (0 : Fin 2) = win0_5.index t (0 : Fin 2) ∧ win0_0.index t (1 : Fin 2) = 0
    ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 7 :=
  (by decide +kernel : ∀ t : Fin grid0.N, _)

/-- Every tile of rows is some point's. -/
theorem idx_onto : ∀ q0 : Fin 8, ∃ t : Fin cfg0.N, win0_5.index t = ![q0.val, 0] :=
  (by decide +kernel : ∀ q0 : Fin 8, ∃ t : Fin grid0.N, win0_5.index t = ![q0.val, 0])

set_option maxHeartbeats 4000000 in
/-- What point `t` writes back is tile `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz]
  simp only [View.ld_unit_zero (S := S512x1024) hz, View.ld_unit_zero (S := S4096x1024) hz,
    View.ld_unit_zero (S := S1x4096) hz, View.ld_unit_zero (S := S1024x4096) hz, View.ld_unit_zero (S := S1x1024) hz]
  rw [pay_fun]
  obtain ⟨e00, e01, e51, e10, e11, e20, e21, e30, e31, e40, e41, -⟩ := idx_facts t
  funext j
  unfold G Cert.Ffn.rows
  show Cert.Ffn.out (fun k => V m c main_v313 (((cfg0.win 0).blk t).view.emb (ix2 (j 0) k)))
        (fun i => V m c main_v306 (((cfg0.win 1).blk t).view.emb i))
        (fun h => V m c main_v310 (((cfg0.win 2).blk t).view.emb (ix2 0 h)))
        (fun i => V m c main_v308 (((cfg0.win 3).blk t).view.emb i))
        (fun d => V m c main_v312 (((cfg0.win 4).blk t).view.emb (ix2 0 d))) (j 1)
      = Cert.Ffn.out (fun k => V m c main_v313 (ix2 ((((cfg0.win 5).blk t).view.emb j) 0) k)) (V m c main_v306)
        (fun h => V m c main_v310 (ix2 0 h)) (V m c main_v308) (fun d => V m c main_v312 (ix2 0 d))
        ((((cfg0.win 5).blk t).view.emb j) 1)
  -- a block's coordinate is the block index times the block size plus the coordinate inside the block
  have h0 : ∀ k : Fin 1024, ((cfg0.win 0).blk t).view.emb (ix2 (j 0) k) = ix2 ((((cfg0.win 5).blk t).view.emb j) 0) k :=
    fun k => funext fun a => Fin.ext (by
      match a with
      | ⟨0, _⟩ => show win0_0.index t (0 : Fin 2) * 512 + 1 * (j 0).val = win0_5.index t (0 : Fin 2) * 512 + 1 * (j 0).val; rw [e00]
      | ⟨1, _⟩ => show win0_0.index t (1 : Fin 2) * 1024 + 1 * k.val = k.val; omega)
  have h1 : ∀ i : S4096x1024.Idx, ((cfg0.win 1).blk t).view.emb i = i := fun i => funext fun a => Fin.ext (by
      match a with
      | ⟨0, _⟩ => show win0_1.index t (0 : Fin 2) * 4096 + 1 * (i 0).val = (i 0).val; omega
      | ⟨1, _⟩ => show win0_1.index t (1 : Fin 2) * 1024 + 1 * (i 1).val = (i 1).val; omega)
  have h2 : ∀ h : Fin 4096, ((cfg0.win 2).blk t).view.emb (ix2 0 h) = ix2 0 h := fun h => funext fun a => Fin.ext (by
      match a with
      | ⟨0, _⟩ => show win0_2.index t (0 : Fin 2) * 1 + 1 * 0 = 0; omega
      | ⟨1, _⟩ => show win0_2.index t (1 : Fin 2) * 4096 + 1 * h.val = h.val; omega)
  have h3 : ∀ i : S1024x4096.Idx, ((cfg0.win 3).blk t).view.emb i = i := fun i => funext fun a => Fin.ext (by
      match a with
      | ⟨0, _⟩ => show win0_3.index t (0 : Fin 2) * 1024 + 1 * (i 0).val = (i 0).val; omega
      | ⟨1, _⟩ => show win0_3.index t (1 : Fin 2) * 4096 + 1 * (i 1).val = (i 1).val; omega)
  have h4 : ∀ d : Fin 1024, ((cfg0.win 4).blk t).view.emb (ix2 0 d) = ix2 0 d := fun d => funext fun a => Fin.ext (by
      match a with
      | ⟨0, _⟩ => show win0_4.index t (0 : Fin 2) * 1 + 1 * 0 = 0; omega
      | ⟨1, _⟩ => show win0_4.index t (1 : Fin 2) * 1024 + 1 * d.val = d.val; omega)
  have h5 : (((cfg0.win 5).blk t).view.emb j) 1 = j 1 := Fin.ext (by
      show win0_5.index t (1 : Fin 2) * 1024 + 1 * (j 1).val = (j 1).val; omega)
  simp only [h0, h1, h2, h3, h4, h5]
  rfl

/-- An index of the output matrix is in point `t`'s tile iff each coordinate is in the tile's range on its axis. -/
theorem mem_blk (t : Fin cfg0.N) (i : S4096x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v314).slice (win0_5.rect t)).set ↔ _
  rw [View.set_slice_whole, Rect.mem_set_unit]
  exact Iff.rfl

/-- Row `r` lies in tile `r / 512`: the 8 tiles cover the matrix. -/
theorem cover (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- After the region the output matrix is `G`. -/
theorem final (c : Dev nD) : (dats m 0 c).arrAt 5 cfg0.N = G m c :=
  (dats m 0 c).arrAt_eq_of_cover 5 (G m c) (fun t _ => flushed_eq m c t) cover

/-- The one host operation after the region reshapes the output matrix to the token grid. -/
theorem tail (c : Dev nD) :
    Pipeline.afterTail₀ cfgs (dats m) 0 (V0 m) [hostOps1] c main_v315
      = shapeCast S8x512x1024 (G m c) shapeCasts_S4096x1024_S8x512x1024 := by
  unfold Pipeline.afterTail₀
  show StableHlo.after hostOps1 _ (Proc.devRef .tc main_v315) = _
  after_results
  show shapeCast S8x512x1024 (Pipeline.withArrays (cfgs 0).spec c (V0 m c) (fun w => (dats m 0 c).arrAt w (cfgs 0).N)
    (Proc.devRef .tc main_v314)) shapeCasts_S4096x1024_S8x512x1024 = _
  exact congrArg (fun A => shapeCast S8x512x1024 A shapeCasts_S4096x1024_S8x512x1024)
    ((Pipeline.withArrays_arr spec0 launch0.win.arr_inj c _ _ 5).trans (final m c))

end Cert.KernelIdeal.Blocks

end
-- ==== Proof.Prefix.lean ====
/-
  What the region finds in its five input arrays.

  Before the region the kernel's program runs the same long line of host operations as the reference — the two
  softmaxes of the architecture weights and the nine-term masked sums that make the effective weight matrices and
  bias vectors — and then five short steps of its own: the two weight matrices narrowed to the 16-bit format (the
  identity at the ideal values), the two bias vectors reshaped to one-row matrices, and the token grid reshaped to
  4096 rows. Composing the line operation by operation and comparing with the reference's stages, the five arrays
  are exactly the reference's effective weights and biases (as stages of the same arguments) and the reshaped tokens.
-/
import proofs.«145027_j21663815041809_2_alg».proof.Proof.Gen.KernelIdeal.Frame
import proofs.«145027_j21663815041809_2_alg».proof.Proof.RefRead
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 136800000 in
/-- The five arrays the region reads, as stages of the program's arguments. -/
theorem found (c : Dev nD) :
    (V m c main_v306 : S4096x1024.Idx → EReal)
        = Cert.ReferenceIdeal.Read.val_main_v305 (F := Ideal) (m ((c : Thread nD τ).loc main_arg1))
            (m ((c : Thread nD τ).loc main_arg5)) (m ((c : Thread nD τ).loc main_arg6))
    ∧ (V m c main_v308 : S1024x4096.Idx → EReal)
        = Cert.ReferenceIdeal.Read.val_main_v312 (F := Ideal) (m ((c : Thread nD τ).loc main_arg3))
            (m ((c : Thread nD τ).loc main_arg5)) (m ((c : Thread nD τ).loc main_arg6))
    ∧ (V m c main_v310 : S1x4096.Idx → EReal)
        = shapeCast S1x4096 (Cert.ReferenceIdeal.Read.val_main_v307 (F := Ideal) (m ((c : Thread nD τ).loc main_arg2))
            (m ((c : Thread nD τ).loc main_arg5)) (m ((c : Thread nD τ).loc main_arg6))) shapeCasts_S4096_S1x4096
    ∧ (V m c main_v312 : S1x1024.Idx → EReal)
        = shapeCast S1x1024 (Cert.ReferenceIdeal.Read.val_main_v314 (F := Ideal) (m ((c : Thread nD τ).loc main_arg4))
            (m ((c : Thread nD τ).loc main_arg5)) (m ((c : Thread nD τ).loc main_arg6))) shapeCasts_S1024_S1x1024
    ∧ (V m c main_v313 : S4096x1024.Idx → EReal)
        = shapeCast S4096x1024 (m ((c : Thread nD τ).loc main_arg0)) shapeCasts_S8x512x1024_S4096x1024 := by
  show StableHlo.after hostOps0 (fun b => m (c, b)) (Proc.devRef .tc main_v306) = _
    ∧ StableHlo.after hostOps0 (fun b => m (c, b)) (Proc.devRef .tc main_v308) = _
    ∧ StableHlo.after hostOps0 (fun b => m (c, b)) (Proc.devRef .tc main_v310) = _
    ∧ StableHlo.after hostOps0 (fun b => m (c, b)) (Proc.devRef .tc main_v312) = _
    ∧ StableHlo.after hostOps0 (fun b => m (c, b)) (Proc.devRef .tc main_v313) = _
  after_results_simp
  exact ⟨rfl, rfl, rfl, rfl, rfl⟩

end Cert.KernelIdeal.Prefix

end
-- ==== Proof.KernelRun.lean ====
/-
  The idealized kernel's run, with its result named.

  After the region the output matrix is the row form of the feed-forward map over the five arrays the region found
  (Blocks); those arrays are the reference's effective weights and biases and the token grid reshaped to rows
  (Prefix); a one-row bias matrix read at column `h` is the bias vector at `h`; and mapping the reshaped rows and
  reshaping back is the map at every position (FfnSpec). So the program's result is FfnSpec's `toks` of its first
  argument over the effective weights and biases — the same term the reference's last stage is.
-/
import proofs.«145027_j21663815041809_2_alg».proof.Proof.Blocks
import proofs.«145027_j21663815041809_2_alg».proof.Proof.Prefix
import proofs.«145027_j21663815041809_2_alg».proof.Proof.FfnSpec

noncomputable section

namespace Cert.KernelIdeal.Run

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The program's result: the feed-forward map at every position of the token grid, over the effective weights and
    biases (the reference's stages of the same arguments). -/
def result (c : Dev nD) : S8x512x1024.Idx → EReal :=
  Cert.Ffn.toks (m ((c : Thread nD τ).loc main_arg0))
    (Cert.ReferenceIdeal.Read.val_main_v305 (F := Ideal) (m ((c : Thread nD τ).loc main_arg1))
      (m ((c : Thread nD τ).loc main_arg5)) (m ((c : Thread nD τ).loc main_arg6)))
    (fun h => Cert.ReferenceIdeal.Read.val_main_v307 (F := Ideal) (m ((c : Thread nD τ).loc main_arg2))
      (m ((c : Thread nD τ).loc main_arg5)) (m ((c : Thread nD τ).loc main_arg6)) (ix1 h))
    (Cert.ReferenceIdeal.Read.val_main_v312 (F := Ideal) (m ((c : Thread nD τ).loc main_arg3))
      (m ((c : Thread nD τ).loc main_arg5)) (m ((c : Thread nD τ).loc main_arg6)))
    (fun d => Cert.ReferenceIdeal.Read.val_main_v314 (F := Ideal) (m ((c : Thread nD τ).loc main_arg4))
      (m ((c : Thread nD τ).loc main_arg5)) (m ((c : Thread nD τ).loc main_arg6)) (ix1 d))

/-- A vector reshaped to a one-row matrix, read at column `h`, is the vector at `h`. -/
theorem row_of_vec {n : Nat} (y : (⟨1, ![n]⟩ : Shape).Idx → EReal) (hc : (⟨1, ![n]⟩ : Shape).ShapeCasts ⟨2, ![1, n]⟩)
    (h : Fin n) : shapeCast (⟨2, ![1, n]⟩ : Shape) y hc (ix2 0 h) = y (ix1 h) :=
  shapeCast_apply y hc (ix2 0 h) (ix1 h) (by
    rw [Shape.rowMajor_val_one, Shape.rowMajor_val_two]
    show h.val = 0 * n + h.val
    omega)

/-- The reshaped output matrix is `result`. -/
theorem cast_G (c : Dev nD) :
    shapeCast S8x512x1024 (Blocks.G m c) shapeCasts_S4096x1024_S8x512x1024 = result m c := by
  obtain ⟨h306, h308, h310, h312, h313⟩ := Prefix.found m c
  unfold Blocks.G result
  rw [h306, h308, h310, h312, h313]
  simp only [row_of_vec]
  exact Cert.Ffn.toks_eq_cast _ _ _ _ _ _ _

/-- Every weakly fair execution of the idealized kernel's @main terminates with its result at `result` and its
    arguments unchanged. -/
theorem run : θ_run defs (onTc (τ := τ) (main (F := Ideal))) ⟨m, fun _ => 0, ρ⟩ fun r => ∀ c : Dev nD,
      r.2.mem ((c.tc : Thread nD τ).loc main_v315) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v315 (Pipeline.mem_restRefs_of main_v315 (by decide) (by decide))).trans
        ((Blocks.tail m c).trans (cast_G m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.lean ====
/-
  A fused two-layer feed-forward kernel against its jnp reference, over the extended reals.

  Both programs first form, from the two softmaxed architecture-weight vectors, the effective weight matrices
  A0 (4096 × 1024), A1 (1024 × 4096) and bias vectors β0, β1 as nine-term masked sums times the given weights — the
  same line of host operations in both — and then compute, for every token u (a row of 1024 features),
      out u d = ∑ h, max (∑ k, u k · A0 (h, k) + β0 h) 0 · A1 (d, h) + β1 d.
  The reference does it with two `dot_general`s over the 8 × 512 grid of tokens, broadcasting the biases. The kernel
  reshapes the grid to 4096 rows, narrows the matrices to a 16-bit format (the identity at the ideal values), walks
  8 tiles of 512 rows, computing each tile with two matrix products that contract the second axis of both factors, and
  reshapes the result back. At the ideal values every step is exact, so both results are the one function `toks` of
  FfnSpec over the same effective weights: the same sums of the same products, indexed differently. No law that could
  fail at an infinity is used, so the finiteness precondition is never opened.

  The modules: FfnSpec (the map, and reshape-map-reshape), Payload (the kernel body's stored value at an entry),
  Blocks (tiles to the whole matrix, and the closing reshape), Prefix (what the region finds in its input arrays),
  KernelRun (the kernel's run with its result named), RefIsSpec (the reference's last stage is the same map).
  RefRun and RefRead are the generated run and one-operation lemmas of the reference.
-/
import proofs.«145027_j21663815041809_2_alg».proof.Defs
import proofs.«145027_j21663815041809_2_alg».proof.Proof.Gen.Kernel
import proofs.«145027_j21663815041809_2_alg».proof.Proof.Gen.Kernel.Skeleton
import proofs.«145027_j21663815041809_2_alg».proof.Proof.Gen.Kernel.Launch
import proofs.«145027_j21663815041809_2_alg».proof.Proof.Gen.Kernel.Points
import proofs.«145027_j21663815041809_2_alg».proof.Proof.Gen.Kernel.Frame
import proofs.«145027_j21663815041809_2_alg».proof.Proof.Gen.KernelIdeal
import proofs.«145027_j21663815041809_2_alg».proof.Proof.Gen.KernelIdeal.Skeleton
import proofs.«145027_j21663815041809_2_alg».proof.Proof.Gen.KernelIdeal.Launch
import proofs.«145027_j21663815041809_2_alg».proof.Proof.Gen.KernelIdeal.Points
import proofs.«145027_j21663815041809_2_alg».proof.Proof.Gen.KernelIdeal.Frame
import proofs.«145027_j21663815041809_2_alg».proof.Proof.Gen.ReferenceIdeal
import proofs.«145027_j21663815041809_2_alg».proof.Proof.Gen.Pre_finite_inputs
import proofs.«145027_j21663815041809_2_alg».proof.Proof.RefRun
import proofs.«145027_j21663815041809_2_alg».proof.Proof.RefRead
import proofs.«145027_j21663815041809_2_alg».proof.Proof.RefIsSpec
import proofs.«145027_j21663815041809_2_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The idealization rewrote nothing. -/
theorem preserves : Cert.preserves_Kernel_KernelIdeal := trivial

/-- From memories agreeing on the arguments, both idealized programs end with the feed-forward map of the first
    argument over the same effective weights and biases. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v317_eq, Cert.ReferenceIdeal.RefValue.ref_is_toks]
  obtain ⟨a0, a1, a2, a3, a4, a5, a6⟩ := hagree c
  rw [a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
